-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S128 : Shape := ⟨1, ![128]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) (main_arg1 : IVec S128 32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_c_0 : IVec S_ 32 := constantI S_ 32 0#32
  let main_v4 : IVec S128 32 := broadcastInDim S128 ![] bcast_S_S128 main_c_0
  let main_v5 : IVec S128 1 := cmpi .sge main_arg1 main_v4
  let main_c_1 : IVec S_ 32 := constantI S_ 32 100000#32
  let main_v6 : IVec S128 32 := broadcastInDim S128 ![] bcast_S_S128 main_c_1
  let main_v7 : IVec S128 1 := cmpi .slt main_arg1 main_v6
  let main_v8 : IVec S128 1 := andi main_v5 main_v7
  let main_c_2 : IVec S_ 1 := constantI S_ 1 1#1
  let main_v9 : IVec S_ 1 := (fun x v => Host.reduce IntOp.andi x v reducesTo_S128_S_d0 h_S_) main_v8 main_c_2
  let main_v10 : IVec S_ 1 := andi main_v3 main_v9
  main_v10
-- ==== Kernel.lean ====
abbrev S128x100000 : Shape := ⟨2, ![128, 100000]⟩
abbrev S128 : Shape := ⟨1, ![128]⟩
abbrev S8x100000 : Shape := ⟨2, ![8, 100000]⟩
abbrev S1 : Shape := ⟨1, ![1]⟩
abbrev S8 : Shape := ⟨1, ![8]⟩
abbrev S8x1 : Shape := ⟨2, ![8, 1]⟩

abbrev nBuf : Space → Nat
  | .hbm => 2
  | .vmem => 4
  | .smem => 1
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .smem, ⟨0, _⟩ => ⟨S128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v1 : BitVec 32 := Scalar.muli arg0 c8_i32
  let v2 : BitVec 32 := Scalar.addi v1 c0_i32
  let v3 : Index := Scalar.indexCast v2
  ![v3.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  numel1_S1 : S1.numel = 1
  concatenates_S1_S1_S1_S1_S1_S1_S1_S1_S8_d0 : Shape.Concatenates [S1, S1, S1, S1, S1, S1, S1, S1] S8 0
  shapeCasts_S8_S8x1 : S8.ShapeCasts S8x1
  iota_S8x100000_d1_w32 : S8x100000.Iotas .tc 32 [1]
  broadcasts_S8x1_S8x100000 : S8x1.Broadcasts S8x100000
  reduces_S8x100000_S8 : S8x100000.Reduces [1] S8
  hrank0 : 0 < grid0.rank
  k0_off1_inb : ∀ i : grid0.Coords, ∀ (r : Fin 8), ∀ a, (k0_off1 i (BitVec.ofNat 32 r.val)) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S128x100000.size a
  hwx0_0 : ∀ i : grid0.Coords, EltTy.bits .f32 = 32 ∨ (Rect.block (s := S128x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S128x100000.size a
  hwx0_1 : ∀ i : grid0.Coords, EltTy.bits .f32 = 32 ∨ (Rect.block (s := S128x100000) S8x100000.size (cc0_transform_1 i) (hinb0_1 i)).WholeWords (EltTy.packing .f32)

variable [Facts₀]

abbrev spec0_0 : Pipeline.WinSpec sig grid0.rank :=
  Pipeline.WinSpec.ofSpec (Memref.whole main_arg0) S8x100000.size reads0_0 false false 2 stage0_0 sem0_0 nbuf0_0 hstage0_0

abbrev spec0_1 : Pipeline.WinSpec sig grid0.rank :=
  Pipeline.WinSpec.ofSpec (Memref.whole main_v0) S8x100000.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S128x100000 : Shape := ⟨2, ![128, 100000]⟩
abbrev S128 : Shape := ⟨1, ![128]⟩
abbrev S_ : Shape := ⟨0, ![]⟩
abbrev S128x1 : Shape := ⟨2, ![128, 1]⟩
abbrev S128x2 : Shape := ⟨2, ![128, 2]⟩

abbrev nBuf : Space → Nat
  | .hbm => 37
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S_, .i32⟩
  | .hbm, ⟨11, _⟩ => ⟨S128, .i32⟩
  | .hbm, ⟨12, _⟩ => ⟨S128, .i1⟩
  | .hbm, ⟨13, _⟩ => ⟨S_, .i32⟩
  | .hbm, ⟨14, _⟩ => ⟨S128, .i32⟩
  | .hbm, ⟨15, _⟩ => ⟨S128, .i32⟩
  | .hbm, ⟨16, _⟩ => ⟨S128, .i32⟩
  | .hbm, ⟨17, _⟩ => ⟨S128x1, .i32⟩
  | .hbm, ⟨18, _⟩ => ⟨S128x1, .i32⟩
  | .hbm, ⟨19, _⟩ => ⟨S128x2, .i32⟩
  | .hbm, ⟨20, _⟩ => ⟨S_, .f32⟩
  | .hbm, ⟨21, _⟩ => ⟨S128, .f32⟩
  | .hbm, ⟨22, _⟩ => ⟨S128x100000, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128x1, .f32⟩
  | .hbm, ⟨29, _⟩ => ⟨S128x100000, .f32⟩
  | .hbm, ⟨30, _⟩ => ⟨S128x100000, .f32⟩
  | .hbm, ⟨31, _⟩ => ⟨S128x100000, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S128x100000, .f32⟩
  | .hbm, ⟨36, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  reducesTo_S128x100000_S128_d1 : S128x100000.ReducesTo [1] S128
  h_S_ : 0 < S_.numel
  bcast_S128x1_S128x100000_0_1 : S128x1.BroadcastsInDim S128x100000 (![0, 1] : Fin 2 → Fin S128x100000.rank)
  scatter_S128x100000_S128x2_S128_n_01_01_1_wf : ScatterDims.WF S128x100000 S128x2 S128 [] [0, 1] [0, 1] 1

variable [Facts₀]

def scatter_S128x100000_S128x2_S128_n_01_01_1 : ScatterDims S128x100000 S128x2 S128 where
  updateWindowDims := []
  insertedWindowDims := [0, 1]
  scatterDimsToOperandDims := [0, 1]
  indexVectorDim := 1
  wf := scatter_S128x100000_S128x2_S128_n_01_01_1_wf

class Facts : Prop extends Facts₀ where

variable [Facts]
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«114236_g32727650795645_cont_8to1_b_1245_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.LibRowSoftmax.lean ====
/-
  The shifted softmax along the rows of an `[A, B]` array on the extended reals, optionally after one entry per row is
  overwritten — for any sizes.

  A row is a family `x : Fin B → EReal`; a row's label is a 32-bit word `g`.

  * `marked v g x` is the row with the entry of the labelled column replaced by `v`: column `k` is the labelled one
    when the word of `k` is `g`.
  * `softmax m₀ y` is the softmax of a row `y` in the shifted form: with `M` the maximum of the row (the fold of
    `max` over the columns, started from `m₀`), entry `q` is `exp (y q − M) / ∑ k, exp (y k − M)`.
  * `ofRows v m₀ x g` is the whole array: entry `(r, q)` is `softmax m₀ (marked v (g r) (row r of x)) q`.
  * `max_rowMax`: a maximum started from `m₀` is at least `m₀` (a second `max` with `m₀` changes nothing).
  * `softmax_block_apply` reads a tiled unit's spelling of the softmax of a block at an entry: the row maximum and
    the row sum are reductions kept as a column `[A, 1]` and spread back along the rows.

  Nothing here needs the entries to be finite.
-/
import proofs.«114236_g32727650795645_cont_8to1_b_1245_2_alg».proof.Proof.LibRowLayer

noncomputable section

open scoped BigOperators

namespace Cert.RowSoftmax

open Idealize.ShloMosaic Idealize.ShloMosaic.ValueIdx Cert.RowLayer

variable {B : ℕ}

/-- The row `x` with the entry of the column whose word is `g` replaced by `v`. -/
def marked (v : EReal) (g : BitVec 32) (x : Fin B → EReal) : Fin B → EReal :=
  fun k => if BitVec.ofNat 32 k.val = g then v else x k

/-- The maximum of a row, started from `m₀`. -/
def rowMax (m₀ : EReal) (y : Fin B → EReal) : EReal := (Finset.univ : Finset (Fin B)).fold max m₀ y

/-- The shifted softmax of a row. -/
def softmax (m₀ : EReal) (y : Fin B → EReal) (q : Fin B) : EReal :=
  Ideal.div (Ideal.exp (y q - rowMax m₀ y)) (∑ k : Fin B, Ideal.exp (y k - rowMax m₀ y))

/-- The whole result: entry `(r, q)` is the softmax of row `r`, marked at the column its label `g r` names, at `q`. -/
def ofRows {A : ℕ} (v m₀ : EReal) (x : (⟨2, ![A, B]⟩ : Shape).Idx → EReal) (g : (⟨1, ![A]⟩ : Shape).Idx → BitVec 32) :
    (⟨2, ![A, B]⟩ : Shape).Idx → EReal :=
  fun i => softmax m₀ (marked v (g (ix1 (i 0))) (fun k => x (ix2 (i 0) k))) (i 1)

/-- A maximum started from `m₀` is at least `m₀`, so taking the maximum with `m₀` once more changes nothing. -/
theorem max_rowMax (m₀ : EReal) (y : Fin B → EReal) : max m₀ (rowMax m₀ y) = rowMax m₀ y :=
  max_eq_right ((Finset.le_fold_max m₀).2 (Or.inl le_rfl))

/-- THE TILED UNIT'S SOFTMAX OF A BLOCK `a : [A, B]`, read at `(p, q)`: the exponentials of the entries less the row
    maximum, divided by their row sum — both reductions kept as a column `[A, 1]` and spread back along the rows. -/
theorem softmax_block_apply {A : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    divf (exp (subf a (broadcastTo ⟨2, ![A, B]⟩ (shapeCast ⟨2, ![A, 1]⟩ (multiReduction .maximumf [1] ⟨1, ![A]⟩ a accM h hφ hM) hc) hb)))
        (broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb) (ix2 p q)
      = softmax (Ideal.ofBits .f32 accM) (fun k => a (ix2 p k)) q := by
  have hm : ∀ c : Fin B,
      broadcastTo ⟨2, ![A, B]⟩ (shapeCast ⟨2, ![A, 1]⟩ (multiReduction .maximumf [1] ⟨1, ![A]⟩ a accM h hφ hM) hc) hb (ix2 p c)
        = rowMax (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc) hb (ix2 p q)
        = ∑ k : Fin B, Ideal.exp (a (ix2 p k) - rowMax (Ideal.ofBits .f32 accM) (fun k => a (ix2 p k))) :=
    (broadcastTo_a1_ab_apply _ hb p q).trans
      ((shapeCast_a_a1_apply _ hc p 0).trans ((rowSum_apply _ accA h hφ hA p).trans
        (Finset.sum_congr rfl fun k _ => congrArg (fun m => Ideal.exp (a (ix2 p k) - m)) (hm k))))
  show Ideal.div (Ideal.exp (a (ix2 p q) - _)) _ = _
  rw [hm q, hs]
  rfl

end Cert.RowSoftmax

end
-- ==== Proof.KernelBlock.lean ====
/-
  One block of the tiled program: what a grid point leaves in the output's staging buffer.

  At grid point `i` the body holds rows `8 i … 8 i + 7` of the input as an `[8, 100000]` block `x₀` and reads the
  eight labels of those rows, words `8 i + k` of the label table. It compares a column counter with the row's label,
  puts `100000` where they agree, and takes the shifted softmax along each row. So entry `(p, q)` of what it stores is

      softmax (−∞) (marked 100000 (label p) (row p of x₀)) q.

  * `block_apply`: the body's arithmetic, as one term of the loaded block and the eight label words, read at `(p, q)`.
  * `out_eq`: the one store of the body covers the staging buffer, so the buffer ends holding that term.
  * `word_eq`: the word read at offset `8 i + k` of the table is entry `8 i + k` of the table.
-/
import proofs.«114236_g32727650795645_cont_8to1_b_1245_2_alg».proof.Proof.Gen.KernelIdeal.Frame
import proofs.«114236_g32727650795645_cont_8to1_b_1245_2_alg».proof.Proof.LibRowSoftmax
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Block

open Cert.KernelIdeal Cert.KernelIdeal.Gen Cert.RowSoftmax Cert.RowLayer

/-! ## The arithmetic of a block, read at an entry -/

/-- The value `100000` the labelled column receives, and the `−∞` both maxima start from. -/
abbrev big : EReal := Ideal.ofBits .f32 0x47C35000#32
abbrev negInf : EReal := Ideal.ofBits .f32 0xFF800000#32

/-- A select on "the two words are equal" is an if-then-else on their equality. -/
theorem select_cmpi_eq {α : Type} (a b : BitVec 32) (u v : α) :
    Scalar.select (IntOp.cmpi .eq a b) u v = if a = b then u else v := by
  show Scalar.select (BitVec.ofBool (a == b)) u v = _
  by_cases h : a = b
  · have e : (a == b) = true := by simpa using h
    rw [e, if_pos h]
    exact if_pos rfl
  · have e : (a == b) = false := by simpa using h
    rw [e, if_neg h]
    exact if_neg (by decide)

/-- The eight label words laid end to end are a vector `[8]` whose entry `p` is word `p`. -/
theorem labels_apply (w : Fin 8 → BitVec 32) (p : Fin 8) :
    concatenate S8 0 [⟨S1, broadcast S1 (w 0)⟩, ⟨S1, broadcast S1 (w 1)⟩, ⟨S1, broadcast S1 (w 2)⟩, ⟨S1, broadcast S1 (w 3)⟩,
        ⟨S1, broadcast S1 (w 4)⟩, ⟨S1, broadcast S1 (w 5)⟩, ⟨S1, broadcast S1 (w 6)⟩, ⟨S1, broadcast S1 (w 7)⟩]
      Facts₀.concatenates_S1_S1_S1_S1_S1_S1_S1_S1_S8_d0 (ix1 p) = w p := by
  fin_cases p <;> rfl

/-- Row `p` of the block after the labelled column is overwritten: the marked row. -/
theorem marked_row (x0 : Vec Ideal S8x100000 .f32) (w : Fin 8 → BitVec 32) (p : Fin 8) (k : Fin 100000) :
    select (cmpi .eq (iota .tc S8x100000 32 [1] Facts₀.iota_S8x100000_d1_w32)
        (broadcastTo S8x100000 (shapeCast S8x1 (concatenate S8 0 [⟨S1, broadcast S1 (w 0)⟩, ⟨S1, broadcast S1 (w 1)⟩,
          ⟨S1, broadcast S1 (w 2)⟩, ⟨S1, broadcast S1 (w 3)⟩, ⟨S1, broadcast S1 (w 4)⟩, ⟨S1, broadcast S1 (w 5)⟩,
          ⟨S1, broadcast S1 (w 6)⟩, ⟨S1, broadcast S1 (w 7)⟩] Facts₀.concatenates_S1_S1_S1_S1_S1_S1_S1_S1_S8_d0)
          Facts₀.shapeCasts_S8_S8x1) Facts₀.broadcasts_S8x1_S8x100000))
      (broadcast S8x100000 (Scalar.ofBits (F := Ideal) .f32 0x47C35000#32)) x0 (ix2 p k)
      = marked big (w p) (fun k => x0 (ix2 p k)) k := by
  rw [select_apply]
  show Scalar.select (IntOp.cmpi .eq (iota .tc S8x100000 32 [1] Facts₀.iota_S8x100000_d1_w32 (ix2 p k))
      (broadcastTo S8x100000 _ Facts₀.broadcasts_S8x1_S8x100000 (ix2 p k))) big (x0 (ix2 p k)) = _
  rw [iota_single_apply, broadcastTo_a1_ab_apply _ Facts₀.broadcasts_S8x1_S8x100000 p k,
    shapeCast_a_a1_apply _ Facts₀.shapeCasts_S8_S8x1 p 0, labels_apply, select_cmpi_eq]
  rfl

/-- THE BLOCK AT AN ENTRY: the body's two payloads composed, of the loaded block `x0` and the label words `w`. -/
theorem block_apply (x0 : Vec Ideal S8x100000 .f32) (w : Fin 8 → BitVec 32) (p : Fin 8) (q : Fin 100000) :
    k0_pay1 (F := Ideal) (k0_pay2 x0 (w 0) (w 1) (w 2) (w 3) (w 4) (w 5) (w 6) (w 7)) (ix2 p q)
      = softmax negInf (marked big (w p) (fun k => x0 (ix2 p k))) q := by
  unfold k0_pay1 k0_pay2
  refine (softmax_block_apply _ _ _ Facts₀.reduces_S8x100000_S8 (.inl rfl) rfl rfl Facts₀.shapeCasts_S8_S8x1
    Facts₀.broadcasts_S8x1_S8x100000 p q).trans ?_
  exact congrArg (fun y => softmax negInf y q) (funext fun k => marked_row x0 w p k)

/-! ## What the body leaves in the staging buffer -/

variable {F : FTy → Type} [FloatOps F]

theorem hz : (![0, 0] : Fin 2 → Nat) = fun _ => 0 := funext fun a => by fin_cases a <;> rfl

theorem one_pos_S1 : 0 < S1.numel := by rw [Facts₀.numel1_S1]; exact Nat.one_pos

/-- Label word `k` of grid point `i`, as the body reads it off the table's contents `xt0`. -/
def word (c : Dev nD) (i : grid0.Coords) (xt0 : TbBuf0 (F := F) c tbM0_0) (k : Fin 8) : Elt F .i32 :=
  View.readAt (Elt F) tbM0_0.view
    (Rect.unit (s := S128) (k0_off1 i (BitVec.ofNat 32 k.val)) S1.size (Facts₀.k0_off1_inb i k)).toLoadRect xt0 (Shape.Idx.first one_pos_S1)

/-- The body's one store covers the output's staging buffer: the buffer ends at the composed payloads of the
    loaded block and the eight words. -/
theorem out_eq (c : Dev nD) (i : grid0.Coords) (a2 : Memref sig .tc .vmem S8x100000 .f32) (h2 : a2.IsWhole)
    (a3 : Memref sig .tc .vmem S8x100000 .f32) (h3 : a3.IsWhole) (x0 : Vec F S8x100000 .f32) (xt0 : TbBuf0 (F := F) c tbM0_0) :
    out0_A_1 c i a2 h2 a3 h3 x0 xt0
      = k0_pay1 (k0_pay2 x0 (word c i xt0 0) (word c i xt0 1) (word c i xt0 2) (word c i xt0 3) (word c i xt0 4)
          (word c i xt0 5) (word c i xt0 6) (word c i xt0 7)) := by
  unfold out0_A_1
  rw [View.read_writes_eq_canon _ _ _ (cover0_A_1 c i a2 h2 a3 h3 x0 xt0)]
  unfold kernelRun0_A
  dsimp only
  sl_unfold_run_names
  rw [View.canon_unit_zero hz]
  rw [show View.readAt (Elt F) a2.view (Rect.unit (s := S8x100000) ![0, 0] S8x100000.size Facts₀.inb_S8x100000_S8x100000_0_0).toLoadRect
      (h2.unread x0) = x0 from by
    simp only [View.readAt_eq_ld, h2.read_unread, View.ld_unit_zero (S := S8x100000) hz]]
  rfl

end Cert.KernelIdeal.Block

end
-- ==== Proof.KernelArray.lean ====
/-
  From blocks to the array: what the tiled program's result holds after the run.

  Grid point `t` (of sixteen) works on rows `8 t … 8 t + 7`: its input block is those rows of the input, the eight
  label words it reads are entries `8 t … 8 t + 7` of the label table, and what it writes back is those rows of the
  result. The sixteen row blocks tile the `[128, 100000]` result, and each is the restriction of ONE function of the
  two argument arrays — `ofRows 100000 (−∞)`: the softmax of every row marked at its label — so that function is the
  result (`final`), and the frame run says so (`run`).
-/
import proofs.«114236_g32727650795645_cont_8to1_b_1245_2_alg».proof.Proof.KernelBlock

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Array

open Cert.KernelIdeal Cert.KernelIdeal.Gen Cert.KernelIdeal.Block Cert.RowSoftmax

/-! ## Where a grid point works: decided over the sixteen points -/

/-- Both index maps send point `t` to block `(t, 0)`. -/
theorem block_index : ∀ t : Fin grid0.N,
    cc0_transform_0 (grid0.coords t) (0 : Fin 2) = t.val ∧ cc0_transform_0 (grid0.coords t) (1 : Fin 2) = 0
    ∧ cc0_transform_1 (grid0.coords t) (0 : Fin 2) = t.val ∧ cc0_transform_1 (grid0.coords t) (1 : Fin 2) = 0 := by
  decide +kernel

/-- Label word `k` of point `t` sits at offset `8 t + k` of the table. -/
theorem word_offset : ∀ (t : Fin grid0.N) (k : Fin 8),
    k0_off1 (grid0.coords t) (BitVec.ofNat 32 k.val) (0 : Fin 1) = 8 * t.val + k.val := by
  decide +kernel

theorem point_lt (t : Fin grid0.N) : t.val < 16 := by have := t.isLt; have h16 : grid0.N = 16 := N_0; omega

/-- Row `8 t + p` of the arrays, for a point `t` and a row `p` of its block. -/
def rowOf (t : Fin grid0.N) (p : Fin 8) : Fin 128 := ⟨8 * t.val + p.val, by have := point_lt t; have := p.isLt; omega⟩

/-! ## The label words and the input block -/

variable {F : FTy → Type} [FloatOps F]

/-- The one entry of a unit rectangle at offset `r` of the table is entry `r`. -/
theorem unit_idx (r : Fin 128) (off : Fin 1 → Nat) (hoff : off 0 = r.val) (inb : ∀ a, off a + S1.size a ≤ S128.size a)
    (h1 : 0 < S1.numel) : (Rect.unit (s := S128) off S1.size inb).idx (Shape.Idx.first h1) = ix1 r := by
  funext a
  apply Fin.ext
  match a with
  | ⟨0, _⟩ =>
    show off 0 + 1 * (Shape.Idx.first h1 (0 : Fin 1)).val = r.val
    have hlt : (Shape.Idx.first h1 (0 : Fin 1)).val < 1 := (Shape.Idx.first h1 (0 : Fin 1)).isLt
    omega

/-- The word the body reads as label `k` at point `t` is entry `8 t + k` of the table's contents. -/
theorem word_eq (c : Dev nD) (t : Fin grid0.N) (xt0 : TbBuf0 (F := F) c tbM0_0) (k : Fin 8) :
    word c (grid0.coords t) xt0 k = (xt0 : S128.Idx → Elt F .i32) (ix1 (rowOf t k)) := by
  unfold word
  exact congrArg (xt0 : S128.Idx → Elt F .i32) (unit_idx (rowOf t k) _ (word_offset t k) _ _)

variable (m : (ℓ : Loc nD τ sig) → Buf (Elt Ideal) ℓ) (ρ : Dev nD → PrngReg)

/-- Entry `(p, k)` of point `t`'s block of the input window sits at `(8 t + p, k)` of the input … -/
theorem emb_in (hO : Ok m) (t : Fin (cfgM m hO).N) (p : Fin 8) (k : Fin 100000) :
    (((cfgM m hO).win 0).blk t).view.emb (ix2 p k : S8x100000.Idx) = (ix2 (rowOf t p) k : S128x100000.Idx) := by
  obtain ⟨e0, e1, -, -⟩ := block_index t
  refine funext fun (a : Fin 2) => Fin.ext ?_
  match a with
  | ⟨0, _⟩ => show cc0_transform_0 (grid0.coords t) (0 : Fin 2) * 8 + 1 * p.val = 8 * t.val + p.val; omega
  | ⟨1, _⟩ => show cc0_transform_0 (grid0.coords t) (1 : Fin 2) * 100000 + 1 * k.val = k.val; omega

/-- … and of the output window at `(8 t + p, k)` of the result. -/
theorem emb_out (hO : Ok m) (t : Fin (cfgM m hO).N) (p : Fin 8) (k : Fin 100000) :
    (((cfgM m hO).win 1).blk t).view.emb (ix2 p k : S8x100000.Idx) = (ix2 (rowOf t p) k : S128x100000.Idx) := by
  obtain ⟨-, -, e2, e3⟩ := block_index t
  refine funext fun (a : Fin 2) => Fin.ext ?_
  match a with
  | ⟨0, _⟩ => show cc0_transform_1 (grid0.coords t) (0 : Fin 2) * 8 + 1 * p.val = 8 * t.val + p.val; omega
  | ⟨1, _⟩ => show cc0_transform_1 (grid0.coords t) (1 : Fin 2) * 100000 + 1 * k.val = k.val; omega

/-- The input block of point `t` is rows `8 t … 8 t + 7` of the input. -/
theorem iblk_apply (hO : Ok m) (c : Dev nD) (t : Fin (cfgM m hO).N) (p : Fin 8) (k : Fin 100000) :
    (iblk m hO c 0 t : Vec Ideal S8x100000 .f32) (ix2 p k) = (V m c main_arg0 : S128x100000.Idx → EReal) (ix2 (rowOf t p) k) := by
  show (V m c main_arg0 : S128x100000.Idx → EReal) ((((cfgM m hO).win 0).blk t).view.emb (ix2 p k : S8x100000.Idx)) = _
  exact congrArg (V m c main_arg0 : S128x100000.Idx → EReal) (emb_in m hO t p k)

/-! ## What a point writes back, and the array after the run -/

/-- WHAT POINT `t` WRITES BACK is block `t` of the softmax of the marked rows. -/
theorem flushed_eq (hO : Ok m) (c : Dev nD) (t : Fin (cfgM m hO).N) :
    (dats m hO 0 c).flushed 1 t
      = (((cfgM m hO).win 1).blk t).view.read (Elt Ideal) (ofRows big negInf (V m c main_arg0) (V m c main_arg1)) := by
  show ((cfgM m hO).win 1).cut (grid0.coords t) ((dats m hO 0 c).after 1 t) = _
  rw [after0_1]
  -- entry (p, q) of the block: first only the positions, the two contents kept as names
  generalize hX : outsAt0 m hO c t = X
  generalize hG : ofRows big negInf (V m c main_arg0) (V m c main_arg1) = G
  refine funext fun (j : S8x100000.Idx) => ?_
  obtain ⟨p, q, rfl⟩ : ∃ (p : Fin 8) (q : Fin 100000), j = ix2 p q := ⟨j 0, j 1, eq_ix2 j⟩
  show X (ix2 p q) = G ((((cfgM m hO).win 1).blk t).view.emb (ix2 p q : S8x100000.Idx))
  rw [emb_out m hO t p q, ← hX, ← hG]
  unfold outsAt0
  refine (congrFun (out_eq c (grid0.coords t) (ms0_0 m hO t) (hs0_0 m hO t) (ms0_1 m hO t) (hs0_1 m hO t)
    (iblk m hO c 0 t) (tbl m 0)) (ix2 p q)).trans ?_
  refine (block_apply (iblk m hO c 0 t) (fun k => word c (grid0.coords t) (tbl m 0) k) p q).trans ?_
  show softmax negInf (marked big (word c (grid0.coords t) (tbl m 0) p) fun k => iblk m hO c 0 t (ix2 p k)) q
    = softmax negInf (marked big ((V m c main_arg1 : S128.Idx → BitVec 32) (ix1 (rowOf t p)))
        fun k => (V m c main_arg0 : S128x100000.Idx → EReal) (ix2 (rowOf t p) k)) q
  rw [word_eq c t (tbl m 0) p, show (fun k => iblk m hO c 0 t (ix2 p k))
      = fun k => (V m c main_arg0 : S128x100000.Idx → EReal) (ix2 (rowOf t p) k) from funext (iblk_apply m hO c t p)]
  rw [← V_pre m c 0]
  rfl

/-- Every entry of the result is written back by the point of its row block. -/
theorem cover (hO : Ok m) (i : S128x100000.Idx) :
    ∃ t : Fin (cfgM m hO).N, ((cfgM m hO).win 1).flush t = true ∧ i ∈ (((cfgM m hO).win 1).blk t).view.set := by
  have hi0 : (i 0).val < 128 := (i 0).isLt
  have hi1 : (i 1).val < 100000 := (i 1).isLt
  let t : Fin grid0.N := ⟨(i 0).val / 8, by rw [N_0]; omega⟩
  obtain ⟨-, -, e2, e3⟩ := block_index t
  refine ⟨t, flush0_1 (adm m hO) t, ?_⟩
  -- the block is the unit-stride rectangle at offsets (8 t, 0) of sizes (8, 100000) of the whole result
  show i ∈ ((View.whole main_v0).slice (((cfgM m hO).win 1).rect t)).set
  refine (Finset.ext_iff.1 (View.set_slice_whole main_v0 (((cfgM m hO).win 1).rect t)) i).2 ?_
  refine Rect.mem_set_unit.2 fun (a : Fin 2) => ?_
  match a with
  | ⟨0, _⟩ =>
    show cc0_transform_1 (grid0.coords t) (0 : Fin 2) * 8 ≤ (i 0).val
      ∧ (i 0).val < cc0_transform_1 (grid0.coords t) (0 : Fin 2) * 8 + 8
    rw [e2]; show (i 0).val / 8 * 8 ≤ (i 0).val ∧ (i 0).val < (i 0).val / 8 * 8 + 8; omega
  | ⟨1, _⟩ =>
    show cc0_transform_1 (grid0.coords t) (1 : Fin 2) * 100000 ≤ (i 1).val
      ∧ (i 1).val < cc0_transform_1 (grid0.coords t) (1 : Fin 2) * 100000 + 100000
    rw [e3]; omega

/-- THE RESULT ARRAY after the run: the softmax of every row of the input marked at its label. -/
theorem final (hO : Ok m) (c : Dev nD) :
    (dats m hO 0 c).arrAt 1 (cfgM m hO).N = ofRows big negInf (V m c main_arg0) (V m c main_arg1) :=
  (dats m hO 0 c).arrAt_eq_of_cover 1 (ofRows big negInf (V m c main_arg0) (V m c main_arg1))
    (fun t _ => flushed_eq m hO c t) (cover m hO)

/-- The frame run, read: the result array at that function of the two arguments, the arguments unchanged. -/
theorem run (hO : Ok m) : θ_run defs (onTc (τ := τ) (main (F := Ideal))) ⟨m, fun _ => 0, ρ⟩ fun r => ∀ c : Dev nD,
      r.2.mem ((c.tc : Thread nD τ).loc main_v0)
        = ofRows big negInf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 1).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c)⟩)
    (run_main m ρ hO)

end Cert.KernelIdeal.Array

end
-- ==== Proof.LibScatterOnce.lean ====
/-
  A scatter read at one index of its result.

  The host's scatter folds a step over the update indices in row-major order: the step of update `j` replaces the
  entry at `j`'s result index (when that index is inside the operand) by the body applied to the entry and the
  update's value, and leaves every other entry alone. So the entry at an index `i` of the result depends only on the
  updates that land on `i`:

  * when no update lands on `i`, the entry is the operand's (`scatter_apply_of_miss`);
  * when exactly one update `j₀` lands on `i`, the entry is the body applied to the operand's entry and
    `j₀`'s value (`scatter_apply_of_once`) — whatever the body, and whatever the order of the updates.

  Both are instances of one fact about a left fold of functions (`foldl_apply_of_miss`, `foldl_apply_of_once`): a
  step that does not touch the entry at `i` can be dropped from the fold when the fold is read at `i`.
-/
import Idealize.ShloMosaic.PureOps

namespace Cert.ScatterOnce

open Idealize.ShloMosaic

/-! ## A left fold of functions, read at one argument -/

section Fold

variable {ι κ α : Type}

/-- If no step of the list changes the value at `i`, the fold read at `i` is the start read at `i`. -/
theorem foldl_apply_of_miss (step : (ι → α) → κ → (ι → α)) (i : ι) :
    ∀ (L : List κ) (r : ι → α), (∀ (r : ι → α) (n : κ), n ∈ L → step r n i = r i) → L.foldl step r i = r i
  | [], _, _ => rfl
  | a :: L, r, h => by
    rw [List.foldl_cons, foldl_apply_of_miss step i L (step r a) fun r n hn => h r n (List.mem_cons_of_mem a hn)]
    exact h r a List.mem_cons_self

/-- If one member `n₀` of a list without repeats changes the value at `i` by `F`, and no other member changes it, the
    fold read at `i` is `F` of the start read at `i`. -/
theorem foldl_apply_of_once (step : (ι → α) → κ → (ι → α)) (i : ι) (n₀ : κ) (F : α → α)
    (hhit : ∀ r : ι → α, step r n₀ i = F (r i)) :
    ∀ (L : List κ) (r : ι → α), L.Nodup → n₀ ∈ L →
      (∀ (r : ι → α) (n : κ), n ∈ L → n ≠ n₀ → step r n i = r i) → L.foldl step r i = F (r i)
  | [], _, _, hm, _ => absurd hm List.not_mem_nil
  | a :: L, r, hnd, hm, hother => by
    rw [List.foldl_cons]
    rw [List.nodup_cons] at hnd
    by_cases ha : a = n₀
    · subst ha
      rw [foldl_apply_of_miss step i L (step r a) fun r n hn =>
        hother r n (List.mem_cons_of_mem a hn) fun e => hnd.1 (e ▸ hn)]
      exact hhit r
    · have hm' : n₀ ∈ L := by
        rcases List.mem_cons.1 hm with e | e
        · exact absurd e.symm ha
        · exact e
      rw [foldl_apply_of_once step i n₀ F hhit L (step r a) hnd.2 hm' fun r n hn =>
        hother r n (List.mem_cons_of_mem a hn)]
      exact congrArg F (hother r a List.mem_cons_self ha)

end Fold

/-! ## The host's scatter -/

section Scatter

variable {α : Type} {s si u : Shape} {w : Nat}

/-- An index of the result that no update lands on keeps the operand's entry. -/
theorem scatter_apply_of_miss (d : ScatterDims s si u) (f : α → α → α) (x : s.Idx → α) (idx : IVec si w)
    (upd : u.Idx → α) (i : s.Idx) (hmiss : ∀ j : u.Idx, d.resultIdx? j idx ≠ some i) :
    Host.scatter d f x idx upd i = x i := by
  unfold Host.scatter
  refine foldl_apply_of_miss _ i _ x fun r n _ => ?_
  show (match d.resultIdx? (u.rowMajor.symm n) idx with
    | some i₀ => fun i' => if i' = i₀ then f (r i₀) (upd (u.rowMajor.symm n)) else r i'
    | none => r) i = r i
  generalize h : d.resultIdx? (u.rowMajor.symm n) idx = o
  cases o with
  | none => rfl
  | some i₀ =>
    have hne : i ≠ i₀ := fun e => hmiss _ (e ▸ h)
    exact if_neg hne

/-- An index of the result that exactly one update `j₀` lands on holds the body applied to the operand's entry and
    that update's value. -/
theorem scatter_apply_of_once (d : ScatterDims s si u) (f : α → α → α) (x : s.Idx → α) (idx : IVec si w)
    (upd : u.Idx → α) (i : s.Idx) (j₀ : u.Idx) (h₀ : d.resultIdx? j₀ idx = some i)
    (honce : ∀ j : u.Idx, d.resultIdx? j idx = some i → j = j₀) :
    Host.scatter d f x idx upd i = f (x i) (upd j₀) := by
  unfold Host.scatter
  refine foldl_apply_of_once _ i (u.rowMajor j₀) (fun a => f a (upd j₀)) (fun r => ?_) _ x
    (List.nodup_finRange _) (List.mem_finRange _) fun r n _ hn => ?_
  · show (match d.resultIdx? (u.rowMajor.symm (u.rowMajor j₀)) idx with
      | some i₀ => fun i' => if i' = i₀ then f (r i₀) (upd (u.rowMajor.symm (u.rowMajor j₀))) else r i'
      | none => r) i = f (r i) (upd j₀)
    rw [Equiv.symm_apply_apply, h₀]
    exact if_pos rfl
  · show (match d.resultIdx? (u.rowMajor.symm n) idx with
      | some i₀ => fun i' => if i' = i₀ then f (r i₀) (upd (u.rowMajor.symm n)) else r i'
      | none => r) i = r i
    generalize h : d.resultIdx? (u.rowMajor.symm n) idx = o
    cases o with
    | none => rfl
    | some i₀ =>
      have hne : i ≠ i₀ := fun e => hn (by
        have := honce _ (e ▸ h)
        rw [← this, Equiv.apply_symm_apply])
      exact if_neg hne

end Scatter

end Cert.ScatterOnce
-- ==== Proof.LibPointScatter.lean ====
/-
  One entry per row: a scatter that writes (or combines) one value per row of an `[N, C]` array, at a chosen column.

  The scatter indices are an `[N, 2]` array of pairs (row, column), the updates an `[N]` vector, both operand axes
  are inserted window axes (each update is one entry), and component 0 / 1 of a pair goes to operand axis 0 / 1.
  When pair `r` is `(r, col r)` with `col r` a column of the array, update `r` lands on entry `(r, col r)`, so no
  two updates land on one entry and entry `(r, c)` of the result is

      the body applied to `x (r, c)` and update `r`   if `c = col r`,        `x (r, c)`   otherwise

  (`pointScatter_apply`), for any `N` and `C` and any body.
-/
import proofs.«114236_g32727650795645_cont_8to1_b_1245_2_alg».proof.Proof.LibScatterOnce
import Idealize.ShloMosaic.Lib.ValueIdx

namespace Cert.PointScatter

open Idealize.ShloMosaic Idealize.ShloMosaic.ValueIdx

variable {N C w : ℕ}

/-- The operand `[N, C]`, the index pairs `[N, 2]`, the updates `[N]`. -/
abbrev SOp (N C : ℕ) : Shape := ⟨2, ![N, C]⟩
abbrev SIx (N : ℕ) : Shape := ⟨2, ![N, 2]⟩
abbrev SUp (N : ℕ) : Shape := ⟨1, ![N]⟩

/-- The dimension numbers of a scatter of single entries addressed by (row, column) pairs. -/
structure IsPoint (d : ScatterDims (SOp N C) (SIx N) (SUp N)) : Prop where
  window : d.updateWindowDims = []
  inserted : d.insertedWindowDims = [0, 1]
  toOperand : d.scatterDimsToOperandDims = [0, 1]
  vector : d.indexVectorDim = 1

/-- The start of update `j` on operand axis `a` is component `a` of pair `j`, read signed. -/
theorem start_eq (d : ScatterDims (SOp N C) (SIx N) (SUp N)) (hd : IsPoint d)
    (j : (SUp N).Idx) (idx : IVec (SIx N) w) (a : Fin 2) :
    d.start j idx a = (idx (ix2 (j 0) a)).toInt := by
  obtain ⟨h1, h2, h3, h4⟩ := hd
  obtain ⟨uw, iw, sd, iv, wf⟩ := d
  subst h1 h2 h3 h4
  unfold ScatterDims.start
  fin_cases a
  · rw [dif_pos (by simp)]
    refine congrArg (fun k => (idx k).toInt) (funext fun b => Fin.ext ?_)
    match b with
    | ⟨0, _⟩ => rfl
    | ⟨1, _⟩ => rfl
  · rw [dif_pos (by simp)]
    refine congrArg (fun k => (idx k).toInt) (funext fun b => Fin.ext ?_)
    match b with
    | ⟨0, _⟩ => rfl
    | ⟨1, _⟩ => rfl

/-- An update is one entry: it has no window coordinate. -/
theorem window_eq (d : ScatterDims (SOp N C) (SIx N) (SUp N)) (hd : IsPoint d) (j : (SUp N).Idx) (a : Fin 2) :
    d.window j a = 0 := by
  obtain ⟨h1, h2, h3, h4⟩ := hd
  obtain ⟨uw, iw, sd, iv, wf⟩ := d
  subst h1 h2
  unfold ScatterDims.window
  rw [dif_neg (by fin_cases a <;> simp [Shape.kept])]

/-- Where update `j` lands when pair `j` is `(j, col j)`: on entry `(j, col j)`. -/
theorem resultIdx_eq (d : ScatterDims (SOp N C) (SIx N) (SUp N)) (hd : IsPoint d) (idx : IVec (SIx N) w)
    (col : Fin N → Fin C) (hrow : ∀ r : Fin N, (idx (ix2 r 0)).toInt = r.val)
    (hcol : ∀ r : Fin N, (idx (ix2 r 1)).toInt = (col r).val) (j : (SUp N).Idx) :
    d.resultIdx? j idx = some (ix2 (j 0) (col (j 0))) := by
  have hs : ∀ a : Fin 2, d.start j idx a + d.window j a = (ix2 (j 0) (col (j 0)) a).val := fun a => by
    rw [start_eq d hd, window_eq d hd]
    match a with
    | ⟨0, _⟩ => exact (congrArg (· + ((0 : ℕ) : ℤ)) (hrow (j 0))).trans (by simp)
    | ⟨1, _⟩ => exact (congrArg (· + ((0 : ℕ) : ℤ)) (hcol (j 0))).trans (by simp)
  unfold ScatterDims.resultIdx?
  rw [dif_pos fun a => by
    rw [hs a]
    exact ⟨Int.natCast_nonneg _, Int.ofNat_lt.2 (ix2 (j 0) (col (j 0)) a).isLt⟩]
  refine congrArg some (funext fun a => Fin.ext ?_)
  show (d.start j idx a + d.window j a).toNat = _
  rw [hs a, Int.toNat_natCast]

/-- THE RESULT AT AN ENTRY: row `r`'s update replaces entry `(r, col r)`, every other entry of the row is kept. -/
theorem pointScatter_apply {α : Type} (d : ScatterDims (SOp N C) (SIx N) (SUp N)) (hd : IsPoint d) (f : α → α → α)
    (x : (SOp N C).Idx → α) (idx : IVec (SIx N) w) (upd : (SUp N).Idx → α)
    (col : Fin N → Fin C) (hrow : ∀ r : Fin N, (idx (ix2 r 0)).toInt = r.val)
    (hcol : ∀ r : Fin N, (idx (ix2 r 1)).toInt = (col r).val) (r : Fin N) (c : Fin C) :
    Host.scatter d f x idx upd (ix2 r c) = if c = col r then f (x (ix2 r c)) (upd (ix1 r)) else x (ix2 r c) := by
  have hres := resultIdx_eq d hd idx col hrow hcol
  by_cases hc : c = col r
  · rw [if_pos hc]
    refine ScatterOnce.scatter_apply_of_once d f x idx upd (ix2 r c) (ix1 r) ?_ fun j hj => ?_
    · rw [hres, hc]
      rfl
    · rw [hres] at hj
      have h0 : j 0 = r := congrFun (Option.some.inj hj) 0
      rw [eq_ix1 j, h0]
      rfl
  · rw [if_neg hc]
    refine ScatterOnce.scatter_apply_of_miss d f x idx upd (ix2 r c) fun j hj => hc ?_
    rw [hres] at hj
    have h0 : j 0 = r := congrFun (Option.some.inj hj) 0
    have h1 : col (j 0) = c := congrFun (Option.some.inj hj) 1
    rw [← h1, h0]

end Cert.PointScatter
-- ==== Proof.LibLabelWord.lean ====
/-
  Labels as 32-bit words.

  A label is a column number `0 ≤ g < n` held in a 32-bit word. The precondition states the range by two SIGNED
  comparisons; the tiled program compares the word with the word of a column counter; the reference first
  "normalises" the word (adds the extent to a negative one) and then reads it signed as a position. For a word in
  range all of these agree with the number `g.toNat`:

  * `toNat_lt_of_signed`: `0 ≤ g` and `g < n` signed, with `n < 2³¹`, give `g.toNat < n`;
  * `toInt_eq_toNat`: such a word read signed is `g.toNat`;
  * `normalize_eq`: the normalisation leaves it alone;
  * `ofNat_eq_iff`: the word of a column number `k < 2³²` is `g` exactly when `k = g.toNat`.
-/
import Idealize.ShloMosaic.PureOps

namespace Cert.LabelWord

open Idealize.ShloMosaic

theorem ofBool_eq_one_iff (b : Bool) : BitVec.ofBool b = 1#1 ↔ b = true := by cases b <;> decide

theorem and_eq_one_iff : ∀ a b : BitVec 1, IntOp.andi a b = 1#1 ↔ a = 1#1 ∧ b = 1#1 := by decide

/-- A word below `2³¹` read signed is the number it holds. -/
theorem toInt_eq_toNat (g : BitVec 32) (h : g.toNat < 2 ^ 31) : g.toInt = g.toNat := by
  unfold BitVec.toInt
  rw [if_pos (by omega)]

/-- A word that is `≥ 0` and `< n` as a signed number, `n < 2³¹`, holds a number below `n`. -/
theorem toNat_lt_of_signed (g : BitVec 32) (n : ℕ) (hn : n < 2 ^ 31) (h0 : IntOp.cmpi .sge g 0#32 = 1#1)
    (h1 : IntOp.cmpi .slt g (BitVec.ofNat 32 n) = 1#1) : g.toNat < n := by
  unfold IntOp.cmpi at h0 h1
  rw [ofBool_eq_one_iff] at h0 h1
  have hn' : (BitVec.ofNat 32 n).toInt = n := by
    rw [toInt_eq_toNat _ (by rw [BitVec.toNat_ofNat]; omega), BitVec.toNat_ofNat]
    congr 1; omega
  have h0' : (0 : ℤ) ≤ g.toInt := by
    have := h0; simp only [BitVec.sle, decide_eq_true_eq] at this; simpa using this
  have h1' : g.toInt < n := by
    have := h1; simp only [BitVec.slt, decide_eq_true_eq] at this; rwa [hn'] at this
  have hlt := g.isLt
  unfold BitVec.toInt at h0' h1'
  split at h0' <;> omega

/-- A word below `2³¹` is not negative. -/
theorem slt_zero (g : BitVec 32) (h : g.toNat < 2 ^ 31) : IntOp.cmpi .slt g 0#32 = 0#1 := by
  unfold IntOp.cmpi
  have : g.slt 0#32 = false := by
    simp only [BitVec.slt, decide_eq_false_iff_not, not_lt]
    rw [toInt_eq_toNat g h]
    simp
  rw [this]; rfl

/-- Adding the extent to a negative index and leaving the others alone leaves a word below `2³¹` alone. -/
theorem normalize_eq (g n : BitVec 32) (h : g.toNat < 2 ^ 31) :
    Scalar.select (IntOp.cmpi .slt g 0#32) (IntOp.addi g n) g = g := by
  rw [slt_zero g h]
  exact if_neg (by decide)

/-- The word of a number below `2³²` is `g` exactly when the number is the one `g` holds. -/
theorem ofNat_eq_iff (k : ℕ) (hk : k < 2 ^ 32) (g : BitVec 32) : BitVec.ofNat 32 k = g ↔ k = g.toNat := by
  constructor
  · intro e
    rw [← e, BitVec.toNat_ofNat]
    omega
  · intro e
    apply BitVec.eq_of_toNat_eq
    rw [BitVec.toNat_ofNat, e]
    have := g.isLt
    omega

end Cert.LabelWord
-- ==== Proof.RefRows.lean ====
/-
  The reference, row by row.

  The reference builds, for each row `r`, the index pair `(r, label r)` — after the normalisation that lets a negative
  index count from the end, which leaves a row number and a label in range alone —, scatters the value `100000` at those pairs, and
  takes the softmax of every row in the shifted form: the row maximum (a reduction started from `−∞`, then once more
  `max` with `−∞`), the exponentials of the differences, their row sum from `0`, the quotient.

  With every label in range (`(x1 r).toNat < 100000`):

  * `pair_row`, `pair_col`: pair `r` is `(r, label r)`;
  * `marked_rows`: the scattered array's row `r` is the marked row — the one update of row `r` lands in row `r`, so
    no two updates meet (the general fact is `PointScatter.pointScatter_apply`);
  * `ref_eq`: the reference's result is `ofRows 100000 (−∞)` of its two arguments.
-/
import proofs.«114236_g32727650795645_cont_8to1_b_1245_2_alg».proof.Proof.Gen.ReferenceIdeal.Read
import proofs.«114236_g32727650795645_cont_8to1_b_1245_2_alg».proof.Proof.LibRowSoftmax
import proofs.«114236_g32727650795645_cont_8to1_b_1245_2_alg».proof.Proof.LibPointScatter
import proofs.«114236_g32727650795645_cont_8to1_b_1245_2_alg».proof.Proof.LibLabelWord

noncomputable section

open scoped BigOperators

namespace Cert.ReferenceIdeal.Rows

open Cert.ReferenceIdeal Cert.ReferenceIdeal.Gen Cert.ReferenceIdeal.Read
open Idealize.ShloMosaic Idealize.ShloMosaic.ValueIdx
open Cert.RowSoftmax Cert.RowLayer Cert.PointScatter Cert.LabelWord

/-- The value `100000` the labelled column receives, and the `−∞` both maxima start from. -/
abbrev big : EReal := Ideal.ofBits .f32 0x47C35000#32
abbrev negInf : EReal := Ideal.ofBits .f32 0xFF800000#32

/-! ## The index pairs -/

/-- Component 0 of pair `r` is the row number `r`. -/
theorem pair_row (x1 : S128.Idx → BitVec 32) (r : Fin 128) :
    val_main_v13 (F := Ideal) x1 (ix2 r (0 : Fin 2)) = BitVec.ofNat 32 r.val := by
  unfold val_main_v13
  refine (concatenate_pair_apply_left (t := S128x2) (s₁ := S128x1) (s₂ := S128x1) (1 : Fin 2) _ _
    Facts₀.concatenates_S128x1_S128x1_S128x2_d1 (ix2 r (0 : Fin 2)) rfl (ix2 r (0 : Fin 1)) ?_).trans ?_
  · intro b
    match b with
    | ⟨0, _⟩ => rfl
    | ⟨1, _⟩ => rfl
  · rw [val_main_v11_apply]
    show Scalar.select (IntOp.cmpi .slt (BitVec.ofNat 32 r.val) (val_main_v1 (F := Ideal) _))
      (IntOp.addi (BitVec.ofNat 32 r.val) (val_main_v3 (F := Ideal) _)) (BitVec.ofNat 32 r.val) = _
    rw [val_main_v1_apply]
    exact normalize_eq _ _ (by rw [BitVec.toNat_ofNat]; have := r.isLt; omega)

/-- Component 1 of pair `r` is row `r`'s label, when the label is below `2³¹`. -/
theorem pair_col (x1 : S128.Idx → BitVec 32) (r : Fin 128) (h : (x1 (ix1 r)).toNat < 2 ^ 31) :
    val_main_v13 (F := Ideal) x1 (ix2 r (1 : Fin 2)) = x1 (ix1 r) := by
  unfold val_main_v13
  refine (concatenate_pair_apply_right (t := S128x2) (s₁ := S128x1) (s₂ := S128x1) (1 : Fin 2) _ _
    Facts₀.concatenates_S128x1_S128x1_S128x2_d1 (ix2 r (1 : Fin 2)) rfl rfl (ix2 r (0 : Fin 1)) ?_ ?_).trans ?_
  · intro b hb
    match b with
    | ⟨0, _⟩ => rfl
    | ⟨1, _⟩ => exact absurd rfl hb
  · rfl
  · rw [val_main_v12_apply]
    have e : idx_main_v12 (ix2 r (0 : Fin 1)) = ix1 r := funext fun a => by match a with | ⟨0, _⟩ => rfl
    rw [e]
    show Scalar.select (IntOp.cmpi .slt (x1 (ix1 r)) (val_main_v6 (F := Ideal) _))
      (IntOp.addi (x1 (ix1 r)) (val_main_v8 (F := Ideal) _)) (x1 (ix1 r)) = _
    rw [val_main_v6_apply]
    exact normalize_eq _ _ h

/-! ## The scattered array -/

/-- The reference's scatter addresses single entries by (row, column) pairs. -/
theorem isPoint : IsPoint (N := 128) (C := 100000) (Cert.ReferenceIdeal.scatter_S128x100000_S128x2_S128_n_01_01_1) :=
  ⟨rfl, rfl, rfl, rfl⟩

/-- Row `r` of the scattered array is row `r` of the input marked at its label. -/
theorem marked_rows (x0 : S128x100000.Idx → EReal) (x1 : S128.Idx → BitVec 32)
    (hg : ∀ r : Fin 128, (x1 (ix1 r)).toNat < 100000) (r : Fin 128) (k : Fin 100000) :
    val_main_v15 (F := Ideal) x0 x1 (ix2 r k) = marked big (x1 (ix1 r)) (fun k => x0 (ix2 r k)) k := by
  unfold val_main_v15
  have hnum : ∀ r : Fin 128, (BitVec.ofNat 32 r.val).toNat = r.val := fun r => by
    rw [BitVec.toNat_ofNat]; have := r.isLt; omega
  refine (pointScatter_apply _ isPoint (fun _ b => b) x0 (val_main_v13 (F := Ideal) x1) (val_main_v14 (F := Ideal))
    (fun r => ⟨(x1 (ix1 r)).toNat, hg r⟩) (fun r => ?_) (fun r => ?_) r k).trans ?_
  · rw [pair_row, toInt_eq_toNat _ (by rw [hnum]; have := r.isLt; omega), hnum]
  · rw [pair_col x1 r (by have := hg r; omega)]
    exact toInt_eq_toNat _ (by have := hg r; omega)
  · show _ = if BitVec.ofNat 32 k.val = x1 (ix1 r) then big else x0 (ix2 r k)
    have hv : val_main_v14 (F := Ideal) (ix1 r) = big := by rw [val_main_v14_apply, val_main_cst_apply]; rfl
    rw [hv]
    have hk : k.val < 2 ^ 32 := by have := k.isLt; omega
    exact if_congr ⟨fun e => (ofNat_eq_iff k.val hk _).2 (congrArg Fin.val e),
      fun e => Fin.ext ((ofNat_eq_iff k.val hk _).1 e)⟩ rfl rfl

/-! ## The result -/

/-- THE REFERENCE'S RESULT is the softmax of the marked rows. -/
theorem ref_eq (x0 : S128x100000.Idx → EReal) (x1 : S128.Idx → BitVec 32)
    (hg : ∀ r : Fin 128, (x1 (ix1 r)).toNat < 100000) :
    val_main_v26 (F := Ideal) x0 x1 = ofRows big negInf x0 x1 := by
  funext i
  obtain ⟨r, q, rfl⟩ : ∃ (r : Fin 128) (q : Fin 100000), i = ix2 r q := ⟨i 0, i 1, eq_ix2 i⟩
  -- the row maximum, spread back along the row
  have hmax : ∀ k : Fin 100000, val_main_v20 (F := Ideal) x0 x1 (ix2 r k)
      = rowMax negInf (marked big (x1 (ix1 r)) fun k => x0 (ix2 r k)) := fun k => by
    rw [val_main_v20_apply, val_main_v19_apply, val_main_v18_apply, val_main_v17_apply, val_main_cst_4_apply]
    have e : idx_main_v19 (idx_main_v20 (ix2 r k)) = ix1 r := funext fun a => by match a with | ⟨0, _⟩ => rfl
    rw [e]
    show max negInf (val_main_v16 (F := Ideal) x0 x1 (ix1 r)) = _
    unfold val_main_v16
    rw [hostRowMax_apply _ _ Facts₀.reducesTo_S128x100000_S128_d1 (by decide) Facts₀.h_S_ r]
    show max negInf ((Finset.univ : Finset (Fin 100000)).fold max negInf fun k => val_main_v15 (F := Ideal) x0 x1 (ix2 r k)) = _
    rw [show (fun k => val_main_v15 (F := Ideal) x0 x1 (ix2 r k)) = marked big (x1 (ix1 r)) (fun k => x0 (ix2 r k)) from
      funext (marked_rows x0 x1 hg r)]
    exact max_rowMax _ _
  -- the exponentials
  have hexp : ∀ k : Fin 100000, val_main_v22 (F := Ideal) x0 x1 (ix2 r k)
      = Ideal.exp (marked big (x1 (ix1 r)) (fun k => x0 (ix2 r k)) k
          - rowMax negInf (marked big (x1 (ix1 r)) fun k => x0 (ix2 r k))) := fun k => by
    rw [val_main_v22_apply, val_main_v21_apply, marked_rows x0 x1 hg r k, hmax k]
    rfl
  -- their row sum, spread back along the row
  have hsum : val_main_v25 (F := Ideal) x0 x1 (ix2 r q)
      = ∑ k : Fin 100000, Ideal.exp (marked big (x1 (ix1 r)) (fun k => x0 (ix2 r k)) k
          - rowMax negInf (marked big (x1 (ix1 r)) fun k => x0 (ix2 r k))) := by
    rw [val_main_v25_apply, val_main_v24_apply, val_main_v23_apply]
    rw [show val_main_cst_5 (F := Ideal) (Shape.Idx.first Facts₀.h_S_) = 0 from Ideal.ofBits_zero_f32, zero_add]
    refine Finset.sum_congr rfl fun k _ => ?_
    rw [show idx_main_v23 (idx_main_v24 (idx_main_v25 (ix2 r q))) k = ix2 r k from
      funext fun a => by match a with | ⟨0, _⟩ => rfl | ⟨1, _⟩ => rfl]
    exact hexp k
  rw [val_main_v26_apply, hexp q, hsum]
  rfl

end Cert.ReferenceIdeal.Rows

end
-- ==== Proof.LabelsInRange.lean ====
/-
  What the precondition says of the labels.

  The precondition is the conjunction of "every entry of the input is finite" and "every label `g` satisfies
  `0 ≤ g` and `g < 100000`" (signed comparisons, all 128 of them joined by a reduction with `and`). Only the second
  half is used: it gives, for every row `r`, `(label r).toNat < 100000` — the label is a column of the array.
  (That the entries are finite is never needed: the two programs are one expression of the marked rows.)
-/
import proofs.«114236_g32727650795645_cont_8to1_b_1245_2_alg».proof.Pre_finite_inputs
import proofs.«114236_g32727650795645_cont_8to1_b_1245_2_alg».proof.Proof.LibLabelWord
import Idealize.ShloMosaic.Lib.ReduceAll
import Idealize.ShloMosaic.Lib.ValueIdx

namespace Cert.Pre_finite_inputs.Labels

open Cert.Pre_finite_inputs Idealize.ShloMosaic Idealize.ShloMosaic.ValueIdx Cert.LabelWord

variable [Facts]

/-- A scalar has one index. -/
instance : Subsingleton S_.Idx := ⟨fun a b => funext fun d => d.elim0⟩

/-- Under the precondition every label is a column number. -/
theorem labels_lt {F : FTy → Type} [FloatOps F] (x0 : FVec F S128x100000 .f32) (x1 : IVec S128 32)
    (h : fn x0 x1 = fun _ => 1#1) (r : Fin 128) : (x1 (ix1 r)).toNat < 100000 := by
  have e := congrFun h ix0
  dsimp only [fn] at e
  -- the second conjunct: the reduction with `and` over the 128 rows is 1
  have e9 := ((and_eq_one_iff _ _).1 e).2
  -- so the bit of row `r` is 1
  have e8 := Host.reduce_andi_all _ _ Facts.reducesTo_S128_S_d0 Facts.h_S_ ix0 e9 (ix1 r)
  simp only [andi, cmpi, broadcastInDim, constantI] at e8
  obtain ⟨h0, h1⟩ := (and_eq_one_iff _ _).1 e8
  exact toNat_lt_of_signed _ 100000 (by decide) h0 h1

end Cert.Pre_finite_inputs.Labels
-- ==== Proof.lean ====
/-
  A fused "overwrite one column per row, then softmax along the rows" against its two-step reference.

  THE INPUTS are an array `t : [128, 100000]` of floats and a vector `gold : [128]` of 32-bit labels.

  THE REFERENCE writes `100000` at `(r, gold r)` for every row `r` (a scatter at the index pairs `(r, gold r)`, after the
  normalisation that lets a negative index count from the end) and takes the softmax of every row of the result.

  THE TILED PROGRAM works on sixteen blocks of eight rows. In each block it compares a column counter with the row's
  label (read from scalar memory), selects `100000` where they agree and the input elsewhere, and takes the softmax of
  each of the eight rows; it writes the block back to the same eight rows of the result.

  THE MATHEMATICS. On the extended reals both programs compute, at `(r, q)`,

      exp (y q − M) / ∑ k, exp (y k − M),        y = row `r` of `t` with the entry at the labelled column replaced by
                                                  `100000`,   M = the maximum of `y`

  (`RowSoftmax.ofRows`). The two spellings differ in three places only, none of which needs the entries of `t` to be
  finite: the reference takes `max (−∞) M` where the tiled program takes `M` (a maximum started from `−∞` is at least
  `−∞`); the reference's sum starts from `0 + …`; and "the labelled column" is `k = gold r` as WORDS in the tiled
  program but a scatter position, read signed after the normalisation, in the reference. The last is where the
  precondition enters: for a negative label the normalisation moves the position to `gold r + 100000` while no column
  counter equals a negative word, so the claim is stated for labels that are columns of the array,
  `0 ≤ gold r < 100000`; then both say `k = (gold r).toNat`.

  THE MODULES. `LibRowSoftmax`: the function and the tiled spelling of a block's softmax at an entry. `KernelBlock`: what
  a grid point leaves in the output's staging buffer, at an entry. `KernelArray`: the sixteen blocks tile the result,
  so the result is the function. `LibScatterOnce`, `LibPointScatter`: a scatter in which at most one update lands on
  each entry, read at an entry. `LibLabelWord`, `LabelsInRange`: labels as words, and what the precondition says of
  them. `RefRows`: the reference is the function. Below: the five claims.
-/
import proofs.«114236_g32727650795645_cont_8to1_b_1245_2_alg».proof.Defs
import proofs.«114236_g32727650795645_cont_8to1_b_1245_2_alg».proof.Proof.Gen.Kernel
import proofs.«114236_g32727650795645_cont_8to1_b_1245_2_alg».proof.Proof.Gen.Kernel.Skeleton
import proofs.«114236_g32727650795645_cont_8to1_b_1245_2_alg».proof.Proof.Gen.Kernel.Launch
import proofs.«114236_g32727650795645_cont_8to1_b_1245_2_alg».proof.Proof.Gen.Kernel.Points
import proofs.«114236_g32727650795645_cont_8to1_b_1245_2_alg».proof.Proof.Gen.Kernel.Frame
import proofs.«114236_g32727650795645_cont_8to1_b_1245_2_alg».proof.Proof.Gen.KernelIdeal
import proofs.«114236_g32727650795645_cont_8to1_b_1245_2_alg».proof.Proof.Gen.KernelIdeal.Skeleton
import proofs.«114236_g32727650795645_cont_8to1_b_1245_2_alg».proof.Proof.Gen.KernelIdeal.Launch
import proofs.«114236_g32727650795645_cont_8to1_b_1245_2_alg».proof.Proof.Gen.KernelIdeal.Points
import proofs.«114236_g32727650795645_cont_8to1_b_1245_2_alg».proof.Proof.Gen.KernelIdeal.Frame
import proofs.«114236_g32727650795645_cont_8to1_b_1245_2_alg».proof.Proof.Gen.ReferenceIdeal
import proofs.«114236_g32727650795645_cont_8to1_b_1245_2_alg».proof.Proof.Gen.Pre_finite_inputs
import Idealize.ShloMosaic.Adequacy
import Idealize.ShloMosaic.Init
import proofs.«114236_g32727650795645_cont_8to1_b_1245_2_alg».proof.Proof.Gen.ReferenceIdeal.Run
import proofs.«114236_g32727650795645_cont_8to1_b_1245_2_alg».proof.Proof.KernelArray
import proofs.«114236_g32727650795645_cont_8to1_b_1245_2_alg».proof.Proof.RefRows
import proofs.«114236_g32727650795645_cont_8to1_b_1245_2_alg».proof.Proof.LabelsInRange

noncomputable section

namespace Cert.Proof

open Idealize.ShloMosaic Idealize.SL.Sem Idealize.ShloMosaic.ValueIdx

/-- The tiled program runs and leaves its arguments alone: its index maps read no table entry, so the side
    condition on the tables' contents is empty. -/
theorem frame_kernel : Cert.frame_Kernel := fun m ρ _ => Cert.Kernel.Gen.frame m ρ trivial

/-- The same for its idealization. -/
theorem frame_kernelIdeal : Cert.frame_KernelIdeal := fun m ρ _ => Cert.KernelIdeal.Gen.frame m ρ trivial

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the softmax of the marked rows of the (agreeing) arguments. -/
theorem algebraic : Cert.algebraic_KernelIdeal_ReferenceIdeal := by
  intro m ρ m' ρ' hpre hagree
  -- every label is a column of the array
  have hg : ∀ (c : Dev Cert.KernelIdeal.nD) (r : Fin 128),
      ((m ((c.tc : Thread Cert.KernelIdeal.nD Cert.KernelIdeal.τ).loc Cert.KernelIdeal.main_arg1)
        : Cert.KernelIdeal.S128.Idx → BitVec 32) (ix1 r)).toNat < 100000 := fun c r =>
    Cert.Pre_finite_inputs.Labels.labels_lt _ _ (hpre c) r
  refine ⟨fun c => Cert.RowSoftmax.ofRows Cert.KernelIdeal.Block.big Cert.KernelIdeal.Block.negInf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  exact Cert.ReferenceIdeal.Rows.ref_eq _ _ (hg c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
